-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S2048x1024, .bf16⟩
  | .local _ .vmem, ⟨10, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  packedbf16_S2048x1024_S512x1024_0_0 : (Rect.unit (s := S2048x1024) ![0, 0] S512x1024.size inb_S2048x1024_S512x1024_0_0).PackedRows (EltTy.packing .bf16)
  inb_S1x2048x1024_S1x512x1024_0_512_0 : ∀ a, (![0, 512, 0] : Fin 3 → Nat) a + S1x512x1024.size a ≤ S1x2048x1024.size a
  inb_S2048x1024_S512x1024_512_0 : ∀ a, (![512, 0] : Fin 2 → Nat) a + S512x1024.size a ≤ S2048x1024.size a
  packedbf16_S2048x1024_S512x1024_512_0 : (Rect.unit (s := S2048x1024) ![512, 0] S512x1024.size inb_S2048x1024_S512x1024_512_0).PackedRows (EltTy.packing .bf16)
  inb_S1x2048x1024_S1x512x1024_0_1024_0 : ∀ a, (![0, 1024, 0] : Fin 3 → Nat) a + S1x512x1024.size a ≤ S1x2048x1024.size a
  inb_S2048x1024_S512x1024_1024_0 : ∀ a, (![1024, 0] : Fin 2 → Nat) a + S512x1024.size a ≤ S2048x1024.size a
  packedbf16_S2048x1024_S512x1024_1024_0 : (Rect.unit (s := S2048x1024) ![1024, 0] S512x1024.size inb_S2048x1024_S512x1024_1024_0).PackedRows (EltTy.packing .bf16)
  inb_S1x2048x1024_S1x512x1024_0_1536_0 : ∀ a, (![0, 1536, 0] : Fin 3 → Nat) a + S1x512x1024.size a ≤ S1x2048x1024.size a
  inb_S2048x1024_S512x1024_1536_0 : ∀ a, (![1536, 0] : Fin 2 → Nat) a + S512x1024.size a ≤ S2048x1024.size a
  packedbf16_S2048x1024_S512x1024_1536_0 : (Rect.unit (s := S2048x1024) ![1536, 0] S512x1024.size inb_S2048x1024_S512x1024_1536_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  reduces_S256x2048_S256 : S256x2048.Reduces [1] S256
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .f32 = 32 ∨ (Rect.block (s := S4x2048x1024) S1x256x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  reducesTo_S4x2048x2048_S4x2048_d2 : S4x2048x2048.ReducesTo [2] S4x2048
  bcast_S_S4x2048 : S_.BroadcastsInDim S4x2048 (![] : Fin 0 → Fin S4x2048.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Cosine-similarity attention, stated once as plain mathematics on the extended reals.

  Inputs: two arrays `x1 x2 : [4, 2048, 1024]` and three matrices `WQ WK WV : [1024, 1024]`.
  For a batch `b`:  Q = x1[b]·WQ,  K = x2[b]·WK,  V = x2[b]·WV  (each [2048, 1024]);
  every row of Q and of K is scaled to unit length, `z ↦ z · rsqrt (max (Σ z²) ε)`;
  the score of query row `q` against key row `k` is the inner product of the two unit rows;
  the weights of row `q` are `exp (score − row maximum)`, and the result row is the weighted sum of the
  rows of V divided by the sum of the weights.

  Two arrangements of the last step are named: `kernelOut` divides the finished weighted sum by the sum of
  the weights, `refOut` divides every weight first and then sums.  They are equal once every quantity is a
  real number with a nonzero divisor (module `Law`).
-/
import Idealize.ShloMosaic.PureOps.Ideal
import Idealize.ShloMosaic.Lib.ValueIdx

noncomputable section

namespace Cert.Attn

open Idealize.ShloMosaic Idealize.ShloMosaic.ValueIdx

/-- An array of shape [4, 2048, 1024] on the extended reals. -/
abbrev Arr3 : Type := (⟨3, ![4, 2048, 1024]⟩ : Shape).Idx → EReal
/-- A matrix of shape [1024, 1024] on the extended reals. -/
abbrev Mat : Type := (⟨2, ![1024, 1024]⟩ : Shape).Idx → EReal

/-- The floor under a row's squared length: the f32 nearest to 1e-12, at its exact binary value. -/
def eps : EReal := Ideal.ofBits .f32 0x2B8CBCCC#32

/-- The value a row maximum starts from: the f32 word of −∞. -/
def negInf : EReal := Ideal.ofBits .f32 0xFF800000#32

/-- Row `s` of batch `b` of `X` times the matrix `W`, at column `e`. -/
def proj (X : Arr3) (W : Mat) (b : Fin 4) (s : Fin 2048) (e : Fin 1024) : EReal :=
  ∑ d : Fin 1024, X (ix3 b s d) * W (ix2 d e)

/-- A row scaled to unit length: `z e · rsqrt (max (Σ_d z d · z d) ε)`. -/
def unitRow (z : Fin 1024 → EReal) (e : Fin 1024) : EReal :=
  z e * Ideal.rsqrt (max (∑ d : Fin 1024, z d * z d) eps)

/-- The unit query row `s` of batch `b`. -/
def qn (x1 : Arr3) (WQ : Mat) (b : Fin 4) (s : Fin 2048) (e : Fin 1024) : EReal :=
  unitRow (proj x1 WQ b s) e

/-- The unit key row `s` of batch `b`. -/
def kn (x2 : Arr3) (WK : Mat) (b : Fin 4) (s : Fin 2048) (e : Fin 1024) : EReal :=
  unitRow (proj x2 WK b s) e

/-- The value row `s` of batch `b`. -/
def vv (x2 : Arr3) (WV : Mat) (b : Fin 4) (s : Fin 2048) (e : Fin 1024) : EReal :=
  proj x2 WV b s e

/-- The cosine score of query row `q` against key row `k`. -/
def score (x1 x2 : Arr3) (WQ WK : Mat) (b : Fin 4) (q k : Fin 2048) : EReal :=
  ∑ d : Fin 1024, qn x1 WQ b q d * kn x2 WK b k d

/-- The largest score of query row `q`, folded from −∞. -/
def rowMax (x1 x2 : Arr3) (WQ WK : Mat) (b : Fin 4) (q : Fin 2048) : EReal :=
  (Finset.univ : Finset (Fin 2048)).fold max negInf (fun k => score x1 x2 WQ WK b q k)

/-- The unnormalised weight of key row `k` for query row `q`. -/
def wexp (x1 x2 : Arr3) (WQ WK : Mat) (b : Fin 4) (q k : Fin 2048) : EReal :=
  Ideal.exp (score x1 x2 WQ WK b q k - rowMax x1 x2 WQ WK b q)

/-- The sum of the weights of query row `q`. -/
def rowSum (x1 x2 : Arr3) (WQ WK : Mat) (b : Fin 4) (q : Fin 2048) : EReal :=
  ∑ k : Fin 2048, wexp x1 x2 WQ WK b q k

/-- The result, dividing last: `(Σ_k w_k · V[k, d]) / Σ_k w_k`. -/
def kernelOut (x1 x2 : Arr3) (WQ WK WV : Mat) : Arr3 := fun i =>
  Ideal.div (∑ k : Fin 2048, wexp x1 x2 WQ WK (i 0) (i 1) k * vv x2 WV (i 0) k (i 2))
    (rowSum x1 x2 WQ WK (i 0) (i 1))

/-- The result, dividing first: `Σ_k (w_k / Σ_k w_k) · V[k, d]`. -/
def refOut (x1 x2 : Arr3) (WQ WK WV : Mat) : Arr3 := fun i =>
  ∑ k : Fin 2048, Ideal.div (wexp x1 x2 WQ WK (i 0) (i 1) k) (rowSum x1 x2 WQ WK (i 0) (i 1))
    * vv x2 WV (i 0) k (i 2)

end Cert.Attn

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.Rows.lean ====
/-
  The three row computations of the attention body, as vector functions with a read-at-an-index lemma each.

  `unitRows`  scales every row of an [a, 1024] vector to unit length: z · rsqrt (max (Σ z²) ε) along the row.
  `scoreRows` is the product of unit query rows with the transposed unit key rows: entry (r, k) is the inner product
              of query row r and key row k.
  `attnRows`  turns scores into weights exp (score − row maximum), multiplies them into the value rows and divides
              by the row's weight sum.
  Read at (r, d) their composition is `Attn.attnRow` of query row r: the result of attention for that one row.
-/
import proofs.«118028_j12180527251775_2_alg».proof.Proof.Spec
import proofs.«118028_j12180527251775_2_alg».proof.Proof.LibRowOps

noncomputable section

namespace Cert.Attn

open Idealize.ShloMosaic Idealize.ShloMosaic.ValueIdx Cert.RowOps

/-- Attention for ONE query row `qrow` (not yet scaled) against unit key rows `KN` and value rows `V`, at column `d`:
    with s k = Σ_e unit(qrow) e · KN k e and w k = exp (s k − max_k s k), the value (Σ_k w k · V k d) / Σ_k w k. -/
def attnRow (qrow : Fin 1024 → EReal) (KN V : Fin 2048 → Fin 1024 → EReal) (d : Fin 1024) : EReal :=
  Ideal.div
    (∑ k : Fin 2048,
      Ideal.exp ((∑ e : Fin 1024, unitRow qrow e * KN k e)
        - (Finset.univ : Finset (Fin 2048)).fold max negInf (fun k' => ∑ e : Fin 1024, unitRow qrow e * KN k' e)) * V k d)
    (∑ k : Fin 2048,
      Ideal.exp ((∑ e : Fin 1024, unitRow qrow e * KN k e)
        - (Finset.univ : Finset (Fin 2048)).fold max negInf (fun k' => ∑ e : Fin 1024, unitRow qrow e * KN k' e)))

/-- The whole result at an index is attention for that index's query row, against its batch's key and value rows. -/
theorem kernelOut_apply (x1 x2 : Arr3) (WQ WK WV : Mat) (i : (⟨3, ![4, 2048, 1024]⟩ : Shape).Idx) :
    kernelOut x1 x2 WQ WK WV i = attnRow (proj x1 WQ (i 0) (i 1)) (kn x2 WK (i 0)) (vv x2 WV (i 0)) (i 2) := rfl

section Rows

variable {a : Nat}

/-- Every row of `z` scaled to unit length. -/
def unitRows (hr : (⟨2, ![a, 1024]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩) (z : FVec Ideal ⟨2, ![a, 1024]⟩ .f32) :
    FVec Ideal ⟨2, ![a, 1024]⟩ .f32 :=
  mulf z (broadcastTo ⟨2, ![a, 1024]⟩
    (rsqrt (maximumf
      (shapeCast ⟨2, ![a, 1]⟩ (multiReduction .add [1] ⟨1, ![a]⟩ (mulf z z) 0x00000000#32 hr (.inl rfl) rfl) hc)
      (broadcast ⟨2, ![a, 1]⟩ (Scalar.ofBits .f32 0x2B8CBCCC#32)))) hb)

theorem unitRows_apply (hr : (⟨2, ![a, 1024]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩) (z : FVec Ideal ⟨2, ![a, 1024]⟩ .f32) (r : Fin a) (e : Fin 1024) :
    unitRows hr hc hb z (ix2 r e) = unitRow (fun e' => z (ix2 r e')) e := by
  unfold unitRows unitRow
  refine congrArg (z (ix2 r e) * ·) ?_
  refine (spread_apply _ hb r e).trans ?_
  refine congrArg Ideal.rsqrt ?_
  refine congrArg (max · _) ?_
  refine (column_apply _ hc r 0).trans ?_
  exact rowSum_apply (mulf z z) 0x00000000#32 hr (.inl rfl) rfl r

/-- Scores of `a` unit query rows against 2048 unit key rows. -/
def scoreRows (dS : DotDims ⟨2, ![a, 1024]⟩ ⟨2, ![1024, 2048]⟩ ⟨2, ![a, 2048]⟩)
    (ht : (⟨2, ![2048, 1024]⟩ : Shape).Transposes [1, 0] ⟨2, ![1024, 2048]⟩)
    (qn : FVec Ideal ⟨2, ![a, 1024]⟩ .bf16) (kn : FVec Ideal ⟨2, ![2048, 1024]⟩ .bf16) : FVec Ideal ⟨2, ![a, 2048]⟩ .f32 :=
  matmul dS none qn (transpose ⟨2, ![1024, 2048]⟩ [1, 0] kn ht) (constant ⟨2, ![a, 2048]⟩ .f32 0x00000000#32)

theorem scoreRows_apply (dS : DotDims ⟨2, ![a, 1024]⟩ ⟨2, ![1024, 2048]⟩ ⟨2, ![a, 2048]⟩) (hS : IsPlain dS)
    (ht : (⟨2, ![2048, 1024]⟩ : Shape).Transposes [1, 0] ⟨2, ![1024, 2048]⟩)
    (qn : FVec Ideal ⟨2, ![a, 1024]⟩ .bf16) (kn : FVec Ideal ⟨2, ![2048, 1024]⟩ .bf16) (r : Fin a) (k : Fin 2048) :
    scoreRows dS ht qn kn (ix2 r k) = ∑ e : Fin 1024, qn (ix2 r e) * kn (ix2 k e) := by
  unfold scoreRows
  refine (matmul_zero_apply hS none qn _ r k).trans ?_
  exact Finset.sum_congr rfl fun e _ => congrArg (qn (ix2 r e) * ·) (swap_apply kn ht e k)

/-- The weights of each row: exp (score − the row's maximum). -/
def weightRows (hr : (⟨2, ![a, 2048]⟩ : Shape).Reduces [1] ⟨1, ![a]⟩) (hc : (⟨1, ![a]⟩ : Shape).ShapeCasts ⟨2, ![a, 1]⟩)
    (hb : (⟨2, ![a, 1]⟩ : Shape).Broadcasts ⟨2, ![a, 2048]⟩) (s : FVec Ideal ⟨2, ![a, 2048]⟩ .f32) :
    FVec Ideal ⟨2, ![a, 2048]⟩ .f32 :=
  exp (subf s (broadcastTo ⟨2, ![a, 2048]⟩
    (shapeCast ⟨2, ![a, 1]⟩ (multiReduction .maximumf [1] ⟨1, ![a]⟩ s 0xFF800000#32 hr (.inl rfl) rfl) hc) hb))

theorem weightRows_apply (hr : (⟨2, ![a, 2048]⟩ : Shape).Reduces [1] ⟨1, ![a]⟩) (hc : (⟨1, ![a]⟩ : Shape).ShapeCasts ⟨2, ![a, 1]⟩)
    (hb : (⟨2, ![a, 1]⟩ : Shape).Broadcasts ⟨2, ![a, 2048]⟩) (s : FVec Ideal ⟨2, ![a, 2048]⟩ .f32) (r : Fin a) (k : Fin 2048) :
    weightRows hr hc hb s (ix2 r k)
      = Ideal.exp (s (ix2 r k) - (Finset.univ : Finset (Fin 2048)).fold max negInf (fun k' => s (ix2 r k'))) := by
  unfold weightRows
  refine congrArg Ideal.exp ?_
  refine congrArg (s (ix2 r k) - ·) ?_
  refine (spread_apply _ hb r k).trans ?_
  refine (column_apply _ hc r 0).trans ?_
  exact rowMax_apply s 0xFF800000#32 hr (.inl rfl) rfl r

/-- The weighted sum of the value rows over the weight sum, row by row. -/
def attnRows (dO : DotDims ⟨2, ![a, 2048]⟩ ⟨2, ![2048, 1024]⟩ ⟨2, ![a, 1024]⟩) (hlt : FTy.bf16.bits < FTy.f32.bits)
    (hr : (⟨2, ![a, 2048]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩)
    (p : FVec Ideal ⟨2, ![a, 2048]⟩ .f32) (v : FVec Ideal ⟨2, ![2048, 1024]⟩ .bf16) : FVec Ideal ⟨2, ![a, 1024]⟩ .f32 :=
  divf (matmul dO none (truncf .bf16 p hlt) v (constant ⟨2, ![a, 1024]⟩ .f32 0x00000000#32))
    (broadcastTo ⟨2, ![a, 1024]⟩
      (shapeCast ⟨2, ![a, 1]⟩ (multiReduction .add [1] ⟨1, ![a]⟩ p 0x00000000#32 hr (.inl rfl) rfl) hc) hb)

theorem attnRows_apply (dO : DotDims ⟨2, ![a, 2048]⟩ ⟨2, ![2048, 1024]⟩ ⟨2, ![a, 1024]⟩) (hO : IsPlain dO)
    (hlt : FTy.bf16.bits < FTy.f32.bits)
    (hr : (⟨2, ![a, 2048]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩)
    (p : FVec Ideal ⟨2, ![a, 2048]⟩ .f32) (v : FVec Ideal ⟨2, ![2048, 1024]⟩ .bf16) (r : Fin a) (d : Fin 1024) :
    attnRows dO hlt hr hc hb p v (ix2 r d)
      = Ideal.div (∑ k : Fin 2048, p (ix2 r k) * v (ix2 k d)) (∑ k : Fin 2048, p (ix2 r k)) := by
  unfold attnRows
  show Ideal.div _ _ = _
  refine congrArg₂ Ideal.div ?_ ?_
  · exact matmul_zero_apply hO none (truncf .bf16 p hlt) v r d
  · refine (spread_apply _ hb r d).trans ?_
    refine (column_apply _ hc r 0).trans ?_
    exact rowSum_apply p 0x00000000#32 hr (.inl rfl) rfl r

end Rows

end Cert.Attn

end
-- ==== Proof.Payloads.lean ====
/-
  What the kernel body's stores hold, read at one index on the extended reals.

  At the first query tile of a batch the body fills two scratch arrays 512 rows at a time: a chunk of the key
  scratch is the unit-length rows of (key-input chunk) · WK, a chunk of the value scratch the rows of
  (key-input chunk) · WV.  The four chunks are computed by the same operations (only cut differently into
  named pieces), so they are one function of the chunk and the weight matrix (`pay4`, `pay5`).
  At every tile the body stores attention for the tile's 256 query rows against the two scratch arrays (`pay18`).
-/
import proofs.«118028_j12180527251775_2_alg».proof.Proof.Gen.KernelIdeal.Skeleton
import proofs.«118028_j12180527251775_2_alg».proof.Proof.Rows
import Idealize.ShloMosaic.Lib.ValueLayout

noncomputable section

namespace Cert.KernelIdeal.Pay

open Idealize.ShloMosaic Idealize.ShloMosaic.ValueIdx Cert.KernelIdeal Cert.Attn Cert.RowOps
open Cert.KernelIdeal.Gen (k0_pay1 k0_pay2 k0_pay4 k0_pay5 k0_pay6 k0_pay7 k0_pay8 k0_pay9 k0_pay11 k0_pay12 k0_pay13 k0_pay14 k0_pay15
  k0_pay16 k0_pay17 k0_pay18)
open Cert.KernelIdeal.Facts₀ Cert.KernelIdeal.Facts

variable [Cert.KernelIdeal.Facts]

/-! ## The four matrix products are plain -/

theorem plain512 : IsPlain dot_S512x1024_S1024x1024_S512x1024_1_0_0_1_n_n := ⟨rfl, rfl, rfl, rfl, rfl, rfl⟩
theorem plain256 : IsPlain dot_S256x1024_S1024x1024_S256x1024_1_0_0_1_n_n := ⟨rfl, rfl, rfl, rfl, rfl, rfl⟩
theorem plainS : IsPlain dot_S256x1024_S1024x2048_S256x2048_1_0_0_1_n_n := ⟨rfl, rfl, rfl, rfl, rfl, rfl⟩
theorem plainO : IsPlain dot_S256x2048_S2048x1024_S256x1024_1_0_0_1_n_n := ⟨rfl, rfl, rfl, rfl, rfl, rfl⟩

/-! ## The chunks are one function of the chunk and the matrix (any float instance) -/

section AnyInstance

variable {F : FTy → Type} [FloatOps F]
variable (w : Vec F S1024x1024 .bf16) (xc : Vec F S1x512x1024 .f32)

theorem keyChunk1 : k0_pay8 (k0_pay7 w xc) = k0_pay4 w xc := rfl
theorem keyChunk2 : k0_pay11 (k0_pay1 w) xc = k0_pay4 w xc := rfl
theorem keyChunk3 : k0_pay16 (k0_pay14 (k0_pay1 w) xc) (k0_pay15 (k0_pay1 w) xc) = k0_pay4 w xc := rfl
theorem valChunk1 : k0_pay9 (k0_pay2 w) (k0_pay6 xc) = k0_pay5 w xc := rfl
theorem valChunk2 : k0_pay12 (k0_pay2 w) xc = k0_pay5 w xc := rfl
theorem valChunk3 : k0_pay17 (k0_pay2 w) (k0_pay13 xc) = k0_pay5 w xc := rfl

end AnyInstance

/-! ## Read at an index, on the extended reals -/

/-- A chunk of the projection: row `r` of the chunk times the matrix, at column `e`. -/
theorem chunkProj_apply (w : FVec Ideal S1024x1024 .bf16) (xc : FVec Ideal S1x512x1024 .f32) (r : Fin 512) (e : Fin 1024) :
    matmul dot_S512x1024_S1024x1024_S512x1024_1_0_0_1_n_n none
        (truncf .bf16 (shapeCast S512x1024 xc shapeCasts_S1x512x1024_S512x1024) bitsLt_bf16_f32)
        (shapeCast S1024x1024 w shapeCasts_S1024x1024_S1024x1024) (constant S512x1024 .f32 0x00000000#32) (ix2 r e)
      = ∑ d : Fin 1024, xc (ix3 0 r d) * w (ix2 d e) := by
  refine (matmul_zero_apply plain512 none _ _ r e).trans ?_
  refine Finset.sum_congr rfl fun d _ => ?_
  show shapeCast S512x1024 xc shapeCasts_S1x512x1024_S512x1024 (ix2 r d)
      * shapeCast S1024x1024 w shapeCasts_S1024x1024_S1024x1024 (ix2 d e) = _
  rw [shapeCast_1ab_ab_apply, shapeCast_self]

theorem pay4_eq (w : FVec Ideal S1024x1024 .bf16) (xc : FVec Ideal S1x512x1024 .f32) :
    k0_pay4 w xc = shapeCast S512x1024 (truncf .bf16
      (unitRows reduces_S512x1024_S512 shapeCasts_S512_S512x1 broadcasts_S512x1_S512x1024
        (matmul dot_S512x1024_S1024x1024_S512x1024_1_0_0_1_n_n none
          (truncf .bf16 (shapeCast S512x1024 xc shapeCasts_S1x512x1024_S512x1024) bitsLt_bf16_f32)
          (shapeCast S1024x1024 w shapeCasts_S1024x1024_S1024x1024) (constant S512x1024 .f32 0x00000000#32)))
      bitsLt_bf16_f32) shapeCasts_S512x1024_S512x1024 := rfl

/-- A chunk of the key scratch, at (r, e): the unit-length row `r` of chunk · matrix, at column `e`. -/
theorem pay4_apply (w : FVec Ideal S1024x1024 .bf16) (xc : FVec Ideal S1x512x1024 .f32) (r : Fin 512) (e : Fin 1024) :
    k0_pay4 (F := Ideal) w xc (ix2 r e) = unitRow (fun e' => ∑ d : Fin 1024, xc (ix3 0 r d) * w (ix2 d e')) e := by
  rw [pay4_eq, shapeCast_self]
  refine (unitRows_apply _ _ _ _ r e).trans ?_
  exact congrArg (fun f => unitRow f e) (funext fun e' => chunkProj_apply w xc r e')

theorem pay5_eq (w : FVec Ideal S1024x1024 .bf16) (xc : FVec Ideal S1x512x1024 .f32) :
    k0_pay5 w xc = shapeCast S512x1024 (truncf .bf16
      (matmul dot_S512x1024_S1024x1024_S512x1024_1_0_0_1_n_n none
        (truncf .bf16 (shapeCast S512x1024 xc shapeCasts_S1x512x1024_S512x1024) bitsLt_bf16_f32)
        (shapeCast S1024x1024 w shapeCasts_S1024x1024_S1024x1024) (constant S512x1024 .f32 0x00000000#32))
      bitsLt_bf16_f32) shapeCasts_S512x1024_S512x1024 := rfl

/-- A chunk of the value scratch, at (r, e): row `r` of chunk · matrix, at column `e`. -/
theorem pay5_apply (w : FVec Ideal S1024x1024 .bf16) (xc : FVec Ideal S1x512x1024 .f32) (r : Fin 512) (e : Fin 1024) :
    k0_pay5 (F := Ideal) w xc (ix2 r e) = ∑ d : Fin 1024, xc (ix3 0 r d) * w (ix2 d e) := by
  rw [pay5_eq, shapeCast_self]
  exact chunkProj_apply w xc r e

theorem pay18_eq (v3 : FVec Ideal S1x256x1024 .f32) (v6 : FVec Ideal S1024x1024 .bf16) (v18 v28 : FVec Ideal S2048x1024 .bf16) :
    k0_pay18 v3 v6 v18 v28 = shapeCast S1x256x1024
      (attnRows dot_S256x2048_S2048x1024_S256x1024_1_0_0_1_n_n bitsLt_bf16_f32 reduces_S256x2048_S256
        shapeCasts_S256_S256x1 broadcasts_S256x1_S256x1024
        (weightRows reduces_S256x2048_S256 shapeCasts_S256_S256x1 broadcasts_S256x1_S256x2048
          (scoreRows dot_S256x1024_S1024x2048_S256x2048_1_0_0_1_n_n transposes_S2048x1024_p1_0_S1024x2048
            (truncf .bf16
              (unitRows reduces_S256x1024_S256 shapeCasts_S256_S256x1 broadcasts_S256x1_S256x1024
                (matmul dot_S256x1024_S1024x1024_S256x1024_1_0_0_1_n_n none
                  (truncf .bf16 (shapeCast S256x1024 v3 shapeCasts_S1x256x1024_S256x1024) bitsLt_bf16_f32)
                  (shapeCast S1024x1024 v6 shapeCasts_S1024x1024_S1024x1024) (constant S256x1024 .f32 0x00000000#32)))
              bitsLt_bf16_f32)
            v18))
        v28) shapeCasts_S256x1024_S1x256x1024 := rfl

/-- The stored tile, at (·, r, d): attention for query row `r` of the tile — the row of (query tile) · WQ — against the
    key scratch `v18` and the value scratch `v28`, at column `d`. -/
theorem pay18_apply (v3 : FVec Ideal S1x256x1024 .f32) (v6 : FVec Ideal S1024x1024 .bf16) (v18 v28 : FVec Ideal S2048x1024 .bf16)
    (u : Fin 1) (r : Fin 256) (d : Fin 1024) :
    k0_pay18 (F := Ideal) v3 v6 v18 v28 (ix3 u r d)
      = attnRow (fun e => ∑ d' : Fin 1024, v3 (ix3 0 r d') * v6 (ix2 d' e)) (fun k e => v18 (ix2 k e))
          (fun k d => v28 (ix2 k d)) d := by
  rw [pay18_eq]
  refine (shapeCast_ab_1ab_apply _ _ u r d).trans ?_
  refine (attnRows_apply _ plainO _ _ _ _ _ _ r d).trans ?_
  -- the projected query row
  have hproj : ∀ e' : Fin 1024,
      matmul dot_S256x1024_S1024x1024_S256x1024_1_0_0_1_n_n none
          (truncf .bf16 (shapeCast S256x1024 v3 shapeCasts_S1x256x1024_S256x1024) bitsLt_bf16_f32)
          (shapeCast S1024x1024 v6 shapeCasts_S1024x1024_S1024x1024) (constant S256x1024 .f32 0x00000000#32) (ix2 r e')
        = ∑ d' : Fin 1024, v3 (ix3 0 r d') * v6 (ix2 d' e') := fun e' => by
    refine (matmul_zero_apply plain256 none _ _ r e').trans ?_
    refine Finset.sum_congr rfl fun d' _ => ?_
    show shapeCast S256x1024 v3 shapeCasts_S1x256x1024_S256x1024 (ix2 r d')
        * shapeCast S1024x1024 v6 shapeCasts_S1024x1024_S1024x1024 (ix2 d' e') = _
    rw [shapeCast_1ab_ab_apply, shapeCast_self]
  -- its scores against the key rows
  have hs : ∀ k : Fin 2048,
      scoreRows dot_S256x1024_S1024x2048_S256x2048_1_0_0_1_n_n transposes_S2048x1024_p1_0_S1024x2048
          (truncf .bf16
            (unitRows reduces_S256x1024_S256 shapeCasts_S256_S256x1 broadcasts_S256x1_S256x1024
              (matmul dot_S256x1024_S1024x1024_S256x1024_1_0_0_1_n_n none
                (truncf .bf16 (shapeCast S256x1024 v3 shapeCasts_S1x256x1024_S256x1024) bitsLt_bf16_f32)
                (shapeCast S1024x1024 v6 shapeCasts_S1024x1024_S1024x1024) (constant S256x1024 .f32 0x00000000#32)))
            bitsLt_bf16_f32) v18 (ix2 r k)
        = ∑ e : Fin 1024, unitRow (fun e' => ∑ d' : Fin 1024, v3 (ix3 0 r d') * v6 (ix2 d' e')) e * v18 (ix2 k e) := fun k => by
    refine (scoreRows_apply _ plainS _ _ _ r k).trans ?_
    refine Finset.sum_congr rfl fun e _ => congrArg (· * v18 (ix2 k e)) ?_
    refine (unitRows_apply _ _ _ _ r e).trans ?_
    exact congrArg (fun f => unitRow f e) (funext hproj)
  unfold attnRow
  simp only [weightRows_apply, hs]

end Cert.KernelIdeal.Pay

end
-- ==== Proof.Pieces.lean ====
/-
  What one run of the kernel body leaves behind, as functions of what it read.

  The body has two cases.  At the first query tile of a batch it first fills the key scratch and the value scratch,
  each by four stores of 512 rows, and then stores the output tile computed from the scratch arrays it has just
  written.  At every other tile it leaves both scratch arrays alone and stores the output tile computed from them
  as they stand.  The four stores of a scratch tile its 2048 rows, and each stored chunk is the corresponding rows
  of ONE function of the batch's key input block and a weight matrix (`keyScr`, `valScr`); so after the stores the
  scratch IS that function, and reading it back whole reads that function.
-/
import proofs.«118028_j12180527251775_2_alg».proof.Proof.Gen.KernelIdeal.Frame
import proofs.«118028_j12180527251775_2_alg».proof.Proof.Payloads
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Cert.Attn Cert.KernelIdeal.Pay

theorem hz3 : (![0, 0, 0] : Fin 3 → Nat) = fun _ => 0 := funext fun a => by fin_cases a <;> rfl
theorem hz2 : (![0, 0] : Fin 2 → Nat) = fun _ => 0 := funext fun a => by fin_cases a <;> rfl

/-- The key scratch of a batch as ONE function of the batch's key input block and the key matrix: entry (k, e) is the
    unit-length row k of block · matrix, at column e. -/
def keyScr (x1 : FVec Ideal S1x2048x1024 .f32) (w : FVec Ideal S1024x1024 .bf16) : Vec Ideal S2048x1024 .bf16 :=
  fun j => unitRow (fun e' => ∑ d : Fin 1024, x1 (ix3 (0 : Fin 1) (j 0) d) * w (ix2 d e')) (j 1)

/-- The value scratch likewise: entry (k, e) is row k of block · matrix, at column e. -/
def valScr (x1 : FVec Ideal S1x2048x1024 .f32) (w : FVec Ideal S1024x1024 .bf16) : Vec Ideal S2048x1024 .bf16 :=
  fun j => ∑ d : Fin 1024, x1 (ix3 (0 : Fin 1) (j 0) d) * w (ix2 d (j 1))

/-- The chunk computed from rows o … o + 511 of the key input block is rows o … o + 511 of the key scratch. -/
theorem keyChunk_at (o : Nat) (inb3 : ∀ a, (![0, o, 0] : Fin 3 → Nat) a + S1x512x1024.size a ≤ S1x2048x1024.size a)
    (inb2 : ∀ a, (![o, 0] : Fin 2 → Nat) a + S512x1024.size a ≤ S2048x1024.size a)
    (x1 : FVec Ideal S1x2048x1024 .f32) (w : FVec Ideal S1024x1024 .bf16) (x : S512x1024.Idx) :
    k0_pay4 (F := Ideal) w (View.ld x1 (Rect.unit (s := S1x2048x1024) ![0, o, 0] S1x512x1024.size inb3)) x
      = keyScr x1 w ((Rect.unit (s := S2048x1024) ![o, 0] S512x1024.size inb2).emb x) := by
  obtain ⟨r, e, rfl⟩ : ∃ (r : Fin 512) (e : Fin 1024), x = ix2 r e := ⟨x 0, x 1, eq_ix2 x⟩
  refine (pay4_apply w _ r e).trans ?_
  unfold keyScr
  have h1 : ((Rect.unit (s := S2048x1024) ![o, 0] S512x1024.size inb2).emb (ix2 r e)) 1 = e :=
    Fin.ext (by show 0 + 1 * e.val = e.val; omega)
  refine congrArg₂ unitRow (funext fun e' => Finset.sum_congr rfl fun d _ => congrArg (· * w (ix2 d e')) ?_) h1.symm
  exact congrArg x1 (funext fun a => Fin.ext (by
    match a with
    | ⟨0, _⟩ => rfl
    | ⟨1, _⟩ => rfl
    | ⟨2, _⟩ => show 0 + 1 * d.val = d.val; omega))

/-- The same for the value scratch. -/
theorem valChunk_at (o : Nat) (inb3 : ∀ a, (![0, o, 0] : Fin 3 → Nat) a + S1x512x1024.size a ≤ S1x2048x1024.size a)
    (inb2 : ∀ a, (![o, 0] : Fin 2 → Nat) a + S512x1024.size a ≤ S2048x1024.size a)
    (x1 : FVec Ideal S1x2048x1024 .f32) (w : FVec Ideal S1024x1024 .bf16) (x : S512x1024.Idx) :
    k0_pay5 (F := Ideal) w (View.ld x1 (Rect.unit (s := S1x2048x1024) ![0, o, 0] S1x512x1024.size inb3)) x
      = valScr x1 w ((Rect.unit (s := S2048x1024) ![o, 0] S512x1024.size inb2).emb x) := by
  obtain ⟨r, e, rfl⟩ : ∃ (r : Fin 512) (e : Fin 1024), x = ix2 r e := ⟨x 0, x 1, eq_ix2 x⟩
  refine (pay5_apply w _ r e).trans ?_
  unfold valScr
  refine Finset.sum_congr rfl fun d _ => ?_
  show x1 _ * _ = x1 _ * _
  refine congrArg₂ (· * ·) (congrArg x1 (funext fun a => Fin.ext (by
      match a with
      | ⟨0, _⟩ => rfl
      | ⟨1, _⟩ => rfl
      | ⟨2, _⟩ => show 0 + 1 * d.val = d.val; omega))) (congrArg w (funext fun a => Fin.ext (by
      match a with
      | ⟨0, _⟩ => rfl
      | ⟨1, _⟩ => show e.val = 0 + 1 * e.val; omega)))

variable (c : Dev nD) (i : grid0.Coords)
  (a2 : Memref sig .tc .vmem S1x256x1024 .f32) (h2 : a2.IsWhole) (a3 : Memref sig .tc .vmem S1x2048x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .bf16) (h6 : a6.IsWhole) (a7 : Memref sig .tc .vmem S1x256x1024 .f32) (h7 : a7.IsWhole)
  (a8 : Memref sig .tc .vmem S2048x1024 .bf16) (h8 : a8.IsWhole) (a9 : Memref sig .tc .vmem S2048x1024 .bf16) (h9 : a9.IsWhole)
  (x0 : Vec Ideal S1x256x1024 .f32) (x1 : Vec Ideal S1x2048x1024 .f32) (x2 : Vec Ideal S1024x1024 .bf16) (x3 : Vec Ideal S1024x1024 .bf16) (x4 : Vec Ideal S1024x1024 .bf16)

/-! ## The two scratch arrays, written 512 rows at a time -/

section Scratch

variable (x1 : Vec Ideal S1x2048x1024 .f32) (w : Vec Ideal S1024x1024 .bf16)

/-- The four stores into the key scratch, last first: rows 1536…, 1024…, 512…, 0… . -/
abbrev keyPieces : List (View.Piece (Elt Ideal) S2048x1024 .bf16) :=
  [⟨Rect.unit (s := S2048x1024) ![1536, 0] S512x1024.size Facts₀.inb_S2048x1024_S512x1024_1536_0,
      k0_pay4 (F := Ideal) w (View.ld x1 (Rect.unit (s := S1x2048x1024) ![0, 1536, 0] S1x512x1024.size Facts₀.inb_S1x2048x1024_S1x512x1024_0_1536_0))⟩,
    ⟨Rect.unit (s := S2048x1024) ![1024, 0] S512x1024.size Facts₀.inb_S2048x1024_S512x1024_1024_0,
      k0_pay4 (F := Ideal) w (View.ld x1 (Rect.unit (s := S1x2048x1024) ![0, 1024, 0] S1x512x1024.size Facts₀.inb_S1x2048x1024_S1x512x1024_0_1024_0))⟩,
    ⟨Rect.unit (s := S2048x1024) ![512, 0] S512x1024.size Facts₀.inb_S2048x1024_S512x1024_512_0,
      k0_pay4 (F := Ideal) w (View.ld x1 (Rect.unit (s := S1x2048x1024) ![0, 512, 0] S1x512x1024.size Facts₀.inb_S1x2048x1024_S1x512x1024_0_512_0))⟩,
    ⟨Rect.unit (s := S2048x1024) ![0, 0] S512x1024.size Facts₀.inb_S2048x1024_S512x1024_0_0,
      k0_pay4 (F := Ideal) w (View.ld x1 (Rect.unit (s := S1x2048x1024) ![0, 0, 0] S1x512x1024.size Facts₀.inb_S1x2048x1024_S1x512x1024_0_0_0))⟩]

/-- The four stores into the value scratch. -/
abbrev valPieces : List (View.Piece (Elt Ideal) S2048x1024 .bf16) :=
  [⟨Rect.unit (s := S2048x1024) ![1536, 0] S512x1024.size Facts₀.inb_S2048x1024_S512x1024_1536_0,
      k0_pay5 (F := Ideal) w (View.ld x1 (Rect.unit (s := S1x2048x1024) ![0, 1536, 0] S1x512x1024.size Facts₀.inb_S1x2048x1024_S1x512x1024_0_1536_0))⟩,
    ⟨Rect.unit (s := S2048x1024) ![1024, 0] S512x1024.size Facts₀.inb_S2048x1024_S512x1024_1024_0,
      k0_pay5 (F := Ideal) w (View.ld x1 (Rect.unit (s := S1x2048x1024) ![0, 1024, 0] S1x512x1024.size Facts₀.inb_S1x2048x1024_S1x512x1024_0_1024_0))⟩,
    ⟨Rect.unit (s := S2048x1024) ![512, 0] S512x1024.size Facts₀.inb_S2048x1024_S512x1024_512_0,
      k0_pay5 (F := Ideal) w (View.ld x1 (Rect.unit (s := S1x2048x1024) ![0, 512, 0] S1x512x1024.size Facts₀.inb_S1x2048x1024_S1x512x1024_0_512_0))⟩,
    ⟨Rect.unit (s := S2048x1024) ![0, 0] S512x1024.size Facts₀.inb_S2048x1024_S512x1024_0_0,
      k0_pay5 (F := Ideal) w (View.ld x1 (Rect.unit (s := S1x2048x1024) ![0, 0, 0] S1x512x1024.size Facts₀.inb_S1x2048x1024_S1x512x1024_0_0_0))⟩]

/-- The four row ranges tile the 2048 rows. -/
theorem keyCover : ∀ y : S2048x1024.Idx, ∃ p ∈ keyPieces x1 w, y ∈ p.1.set :=
  View.cover_of_tiledL (keyPieces x1 w) S512x1024.size (by sl_kernel_rfl)

theorem valCover : ∀ y : S2048x1024.Idx, ∃ p ∈ valPieces x1 w, y ∈ p.1.set :=
  View.cover_of_tiledL (valPieces x1 w) S512x1024.size (by sl_kernel_rfl)

/-- After the four stores the key scratch is one function of the key input block and the matrix. -/
theorem keyCanon : View.canon (keyPieces x1 w) = keyScr x1 w :=
  funext fun y => View.canon_apply_of_pieces (keyScr x1 w) (keyPieces x1 w) (by
    intro p hp
    simp only [List.mem_cons, List.not_mem_nil, or_false] at hp
    rcases hp with rfl | rfl | rfl | rfl
    · intro x; dsimp only at x ⊢; exact keyChunk_at 1536 _ _ x1 w x
    · intro x; dsimp only at x ⊢; exact keyChunk_at 1024 _ _ x1 w x
    · intro x; dsimp only at x ⊢; exact keyChunk_at 512 _ _ x1 w x
    · intro x; dsimp only at x ⊢; exact keyChunk_at 0 _ _ x1 w x) y (keyCover x1 w y)

theorem valCanon : View.canon (valPieces x1 w) = valScr x1 w :=
  funext fun y => View.canon_apply_of_pieces (valScr x1 w) (valPieces x1 w) (by
    intro p hp
    simp only [List.mem_cons, List.not_mem_nil, or_false] at hp
    rcases hp with rfl | rfl | rfl | rfl
    · intro x; dsimp only at x ⊢; exact valChunk_at 1536 _ _ x1 w x
    · intro x; dsimp only at x ⊢; exact valChunk_at 1024 _ _ x1 w x
    · intro x; dsimp only at x ⊢; exact valChunk_at 512 _ _ x1 w x
    · intro x; dsimp only at x ⊢; exact valChunk_at 0 _ _ x1 w x) y (valCover x1 w y)

end Scratch

/-! ## What each case of the body leaves -/

/-- At the first tile of a batch the key scratch ends as the function of the batch's key input and the key matrix. -/
theorem sout_A_0 (hc : cond0_0 i) :
    sout0_A_0 c i a2 h2 a3 h3 a4 h4 a5 h5 a6 h6 a7 h7 a8 h8 a9 h9 hc x0 x1 x2 x3 x4 = keyScr x1 x3 := by
  unfold sout0_A_0
  rw [View.read_writes_eq_canon _ _ _ (scover0_A_0 c i a2 h2 a3 h3 a4 h4 a5 h5 a6 h6 a7 h7 a8 h8 a9 h9 hc x0 x1 x2 x3 x4)]
  unfold kernelRun0_A
  dsimp only
  sl_unfold_words
  simp only [View.readAt_eq_ld, h5.read_unread, h3.read_unread, View.ld_unit_zero (S := S1024x1024) hz2, keyChunk1, keyChunk2, keyChunk3]
  exact keyCanon x1 x3

/-- … and the value scratch as the function of the batch's key input and the value matrix. -/
theorem sout_A_1 (hc : cond0_0 i) :
    sout0_A_1 c i a2 h2 a3 h3 a4 h4 a5 h5 a6 h6 a7 h7 a8 h8 a9 h9 hc x0 x1 x2 x3 x4 = valScr x1 x4 := by
  unfold sout0_A_1
  rw [View.read_writes_eq_canon _ _ _ (scover0_A_1 c i a2 h2 a3 h3 a4 h4 a5 h5 a6 h6 a7 h7 a8 h8 a9 h9 hc x0 x1 x2 x3 x4)]
  unfold kernelRun0_A
  dsimp only
  sl_unfold_words
  simp only [View.readAt_eq_ld, h6.read_unread, h3.read_unread, View.ld_unit_zero (S := S1024x1024) hz2, valChunk1, valChunk2, valChunk3]
  exact valCanon x1 x4

/-- At the first tile of a batch the output tile is attention of the query tile against the scratch arrays just written. -/
theorem out_A (hc : cond0_0 i) :
    out0_A_5 c i a2 h2 a3 h3 a4 h4 a5 h5 a6 h6 a7 h7 a8 h8 a9 h9 hc x0 x1 x2 x3 x4
      = k0_pay18 x0 x2 (keyScr x1 x3) (valScr x1 x4) := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S1x256x1024) hz3, View.ld_unit_zero (S := S1024x1024) hz2,
    keyChunk1, keyChunk2, keyChunk3, valChunk1, valChunk2, valChunk3]
  rw [View.readCov_eq_canon_ld _ _ _ (keyCover x1 x3), View.readCov_eq_canon_ld _ _ _ (valCover x1 x4),
    View.ld_unit_zero (S := S2048x1024) hz2, View.ld_unit_zero (S := S2048x1024) hz2, keyCanon, valCanon]

/-- At every other tile the output tile is attention of the query tile against the scratch arrays as the tile before left them. -/
theorem out_B (hc : ¬cond0_0 i) (xs0 xs1 : Vec Ideal S2048x1024 .bf16) :
    out0_B_5 c i a2 h2 a3 h3 a4 h4 a5 h5 a6 h6 a7 h7 a8 h8 a9 h9 hc x0 x1 x2 x3 x4 xs0 xs1 = k0_pay18 x0 x2 xs0 xs1 := by
  unfold out0_B_5
  rw [View.read_writes_eq_canon _ _ _ (cover0_B_5 c i a2 h2 a3 h3 a4 h4 a5 h5 a6 h6 a7 h7 a8 h8 a9 h9 hc x0 x1 x2 x3 x4 xs0 xs1)]
  unfold kernelRun0_B
  dsimp only
  sl_unfold_words
  rw [View.canon_unit_zero hz3]
  simp only [View.readAt_eq_ld, h2.read_unread, h4.read_unread, h8.read_unread, h9.read_unread,
    View.ld_unit_zero (S := S1x256x1024) hz3, View.ld_unit_zero (S := S1024x1024) hz2, View.ld_unit_zero (S := S2048x1024) hz2]

end Cert.KernelIdeal.Pieces

end
-- ==== Proof.Tiles.lean ====
/-
  The grid of the fused call: 32 points, point t = 8·b + i works on batch b and on query rows 256·i … 256·i + 255.
-/
import proofs.«118028_j12180527251775_2_alg».proof.Proof.Gen.KernelIdeal.Launch

noncomputable section

namespace Cert.KernelIdeal.Tiles

open Idealize.ShloMosaic Cert.KernelIdeal Cert.KernelIdeal.Gen

/-- The batch a grid point works on: t / 8. -/
def bOf (t : Fin cfg0.N) : Fin 4 :=
  ⟨t.val / 8, by have h := t.isLt; have hN : cfg0.N = 32 := N_0; omega⟩

/-- Row `r` of a grid point's query tile, as a row of the batch: 256 · (t % 8) + r. -/
def tileRow (t : Fin cfg0.N) (r : Fin 256) : Fin 2048 :=
  ⟨t.val % 8 * 256 + r.val, by have h := r.isLt; omega⟩

theorem bOf_val (t : Fin cfg0.N) : (bOf t).val = t.val / 8 := rfl
theorem tileRow_val (t : Fin cfg0.N) (r : Fin 256) : (tileRow t r).val = t.val % 8 * 256 + r.val := rfl

end Cert.KernelIdeal.Tiles

end
-- ==== Proof.Blocks.lean ====
/-
  What the fused call's input windows hold at a grid point, entry by entry.

  Point `t = 8·b + i` of the 4 × 8 grid sees: of the first argument the tile of 256 query rows
  `256·i … 256·i + 255` of batch `b`; of the second argument all 2048 rows of batch `b`; and the three
  weight matrices whole.  The matrices reach the call through a change of float format made before it, which
  on the extended reals is the identity.
-/
import proofs.«118028_j12180527251775_2_alg».proof.Proof.Gen.KernelIdeal.Frame.Runs
import proofs.«118028_j12180527251775_2_alg».proof.Proof.Tiles
import Idealize.ShloMosaic.Lib.ValueIdx
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.ShloMosaic.ValueIdx Idealize.SL.Sem

variable (m : (ℓ : Loc nD τ sig) → Buf (Elt Ideal) ℓ)

/-- The block index of every input window at grid point `t`, per axis: the first window moves with both grid
    coordinates `(t / 8, t % 8)`, the second with the batch `t / 8` only, the three matrices never move.
    Decided once over the 32 points. -/
theorem index_maps : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The two activations

An entry `(u, r, d)` of a block sits in the array at `index · size + offset` on every axis. -/

/-- Window 0 at point `t`: rows `256·(t % 8) + r` of batch `t / 8` of the first argument. -/
theorem iblk0_apply (c : Dev nD) (t : Fin cfg0.N) (u : Fin 1) (r : Fin 256) (d : Fin 1024) :
    (iblk m c 0 t : Vec Ideal S1x256x1024 .f32) (ix3 u r d)
      = m ((c : Thread nD τ).loc main_arg0) (ix3 (bOf t) (tileRow t r) d) := by
  obtain ⟨e0, e1, e2, -⟩ := index_maps t
  unfold iblk
  rw [View.read_apply]
  show V m c main_arg0 _ = m (c.tc.loc main_arg0) _
  rw [V_main_arg0]
  refine congrArg _ ?_
  funext a
  apply Fin.ext
  match a with
  | ⟨0, _⟩ =>
    show win0_0.index t (0 : Fin 3) * 1 + 1 * u.val = t.val / 8
    have hu : u.val < 1 := u.isLt
    omega
  | ⟨1, _⟩ =>
    show win0_0.index t (1 : Fin 3) * 256 + 1 * r.val = t.val % 8 * 256 + r.val
    omega
  | ⟨2, _⟩ =>
    show win0_0.index t (2 : Fin 3) * 1024 + 1 * d.val = d.val
    omega

/-- Window 1 at point `t`: all rows of batch `t / 8` of the second argument. -/
theorem iblk1_apply (c : Dev nD) (t : Fin cfg0.N) (u : Fin 1) (k : Fin 2048) (d : Fin 1024) :
    (iblk m c 1 t : Vec Ideal S1x2048x1024 .f32) (ix3 u k d)
      = m ((c : Thread nD τ).loc main_arg1) (ix3 (bOf t) k d) := by
  obtain ⟨-, -, -, e0, e1, e2, -⟩ := index_maps t
  unfold iblk
  rw [View.read_apply]
  show V m c main_arg1 _ = m (c.tc.loc main_arg1) _
  rw [V_main_arg1]
  refine congrArg _ ?_
  funext a
  apply Fin.ext
  match a with
  | ⟨0, _⟩ =>
    show win0_1.index t (0 : Fin 3) * 1 + 1 * u.val = t.val / 8
    have hu : u.val < 1 := u.isLt
    omega
  | ⟨1, _⟩ =>
    show win0_1.index t (1 : Fin 3) * 2048 + 1 * k.val = k.val
    omega
  | ⟨2, _⟩ =>
    show win0_1.index t (2 : Fin 3) * 1024 + 1 * d.val = d.val
    omega

/-! ## The three weight matrices -/

/-- The matrix the call's window 2 stages is the first weight matrix itself: the change of float format before
    the call is the identity on the extended reals. -/
theorem entry_main_v0 (c : Dev nD) (i : S1024x1024.Idx) :
    V m c main_v0 i = m ((c : Thread nD τ).loc main_arg2) i := by
  have e : (V m c main_v0 : S1024x1024.Idx → EReal) = fun j => m ((c : Thread nD τ).loc main_arg2) j := by
    dsimp only [Gen.V, Gen.hostOps0]
    after_results
    rfl
  exact congrFun e i

/-- Window 2 is the whole matrix at every grid point. -/
theorem iblk2_apply (c : Dev nD) (t : Fin cfg0.N) (d e : Fin 1024) :
    (iblk m c 2 t : Vec Ideal S1024x1024 .bf16) (ix2 d e) = m ((c : Thread nD τ).loc main_arg2) (ix2 d e) := by
  obtain ⟨-, -, -, -, -, -, e0, e1, -⟩ := index_maps t
  unfold iblk
  rw [View.read_apply]
  show V m c main_v0 _ = m (c.tc.loc main_arg2) _
  rw [entry_main_v0]
  refine congrArg _ ?_
  funext a
  apply Fin.ext
  match a with
  | ⟨0, _⟩ =>
    show win0_2.index t (0 : Fin 2) * 1024 + 1 * d.val = d.val
    omega
  | ⟨1, _⟩ =>
    show win0_2.index t (1 : Fin 2) * 1024 + 1 * e.val = e.val
    omega

/-- The matrix the call's window 3 stages is the second weight matrix itself: the change of float format before
    the call is the identity on the extended reals. -/
theorem entry_main_v1 (c : Dev nD) (i : S1024x1024.Idx) :
    V m c main_v1 i = m ((c : Thread nD τ).loc main_arg3) i := by
  have e : (V m c main_v1 : S1024x1024.Idx → EReal) = fun j => m ((c : Thread nD τ).loc main_arg3) j := by
    dsimp only [Gen.V, Gen.hostOps0]
    after_results
    rfl
  exact congrFun e i

/-- Window 3 is the whole matrix at every grid point. -/
theorem iblk3_apply (c : Dev nD) (t : Fin cfg0.N) (d e : Fin 1024) :
    (iblk m c 3 t : Vec Ideal S1024x1024 .bf16) (ix2 d e) = m ((c : Thread nD τ).loc main_arg3) (ix2 d e) := by
  obtain ⟨-, -, -, -, -, -, -, -, e0, e1, -⟩ := index_maps t
  unfold iblk
  rw [View.read_apply]
  show V m c main_v1 _ = m (c.tc.loc main_arg3) _
  rw [entry_main_v1]
  refine congrArg _ ?_
  funext a
  apply Fin.ext
  match a with
  | ⟨0, _⟩ =>
    show win0_3.index t (0 : Fin 2) * 1024 + 1 * d.val = d.val
    omega
  | ⟨1, _⟩ =>
    show win0_3.index t (1 : Fin 2) * 1024 + 1 * e.val = e.val
    omega

/-- The matrix the call's window 4 stages is the third weight matrix itself: the change of float format before
    the call is the identity on the extended reals. -/
theorem entry_main_v2 (c : Dev nD) (i : S1024x1024.Idx) :
    V m c main_v2 i = m ((c : Thread nD τ).loc main_arg4) i := by
  have e : (V m c main_v2 : S1024x1024.Idx → EReal) = fun j => m ((c : Thread nD τ).loc main_arg4) j := by
    dsimp only [Gen.V, Gen.hostOps0]
    after_results
    rfl
  exact congrFun e i

/-- Window 4 is the whole matrix at every grid point. -/
theorem iblk4_apply (c : Dev nD) (t : Fin cfg0.N) (d e : Fin 1024) :
    (iblk m c 4 t : Vec Ideal S1024x1024 .bf16) (ix2 d e) = m ((c : Thread nD τ).loc main_arg4) (ix2 d e) := by
  obtain ⟨-, -, -, -, -, -, -, -, -, -, e0, e1⟩ := index_maps t
  unfold iblk
  rw [View.read_apply]
  show V m c main_v2 _ = m (c.tc.loc main_arg4) _
  rw [entry_main_v2]
  refine congrArg _ ?_
  funext a
  apply Fin.ext
  match a with
  | ⟨0, _⟩ =>
    show win0_4.index t (0 : Fin 2) * 1024 + 1 * d.val = d.val
    omega
  | ⟨1, _⟩ =>
    show win0_4.index t (1 : Fin 2) * 1024 + 1 * e.val = e.val
    omega

end Cert.KernelIdeal.Blocks

end
-- ==== Proof.Cover.lean ====
/-
  The output window's blocks tile the result array.

  The fused call runs on a 4 × 8 grid; point t = 8·b + i writes back the block of the result that holds
  batch b and query rows 256·i … 256·i + 255, all 1024 columns.  Two facts are read off the printed index
  map, decided once over the 32 points: where an index of a point's block sits in the array, and that every
  index of the array lies in the block of the point 8 · (batch) + (row / 256).
-/
import proofs.«118028_j12180527251775_2_alg».proof.Proof.Tiles
import proofs.«118028_j12180527251775_2_alg».proof.Proof.Gen.KernelIdeal.Points
import Idealize.ShloMosaic.Lib.Pipeline.Value
import Idealize.ShloMosaic.Lib.ValueIdx

noncomputable section

namespace Cert.KernelIdeal.Cover

open Cert.KernelIdeal Cert.KernelIdeal.Gen Cert.KernelIdeal.Tiles Idealize.ShloMosaic

/-- The output window's block index at grid point `t` is (t / 8, t % 8, 0), decided over the 32 points. -/
theorem idx_facts5 : ∀ t : Fin cfg0.N, win0_5.index t (0 : Fin 3) = t.val / 8
    ∧ win0_5.index t (1 : Fin 3) = t.val % 8
    ∧ win0_5.index t (2 : Fin 3) = 0 :=
  (by decide +kernel : ∀ t : Fin grid0.N, _)

/-- Every block index (batch, row tile, 0) is some grid point's. -/
theorem idx_onto5 : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- Index (u, r, d) of the block that point `t` writes back sits at index (t / 8, t % 8 · 256 + r, d) of the
    result array: per axis the block index times the block's extent plus the coordinate inside the block. -/
theorem blk5_emb (t : Fin cfg0.N) (u : Fin 1) (r : Fin 256) (d : Fin 1024) :
    ((cfg0.win 5).blk t).view.emb (ValueIdx.ix3 u r d) = ValueIdx.ix3 (bOf t) (tileRow t r) d := by
  obtain ⟨e0, e1, e2⟩ := idx_facts5 t
  funext a; apply Fin.ext
  match a with
  | ⟨0, _⟩ =>
    show win0_5.index t (0 : Fin 3) * 1 + 1 * u.val = t.val / 8
    have hu : u.val < 1 := u.isLt
    omega
  | ⟨1, _⟩ =>
    show win0_5.index t (1 : Fin 3) * 256 + 1 * r.val = t.val % 8 * 256 + r.val
    omega
  | ⟨2, _⟩ =>
    show win0_5.index t (2 : Fin 3) * 1024 + 1 * d.val = d.val
    omega

/-- An index of the result array is in point `t`'s block iff each coordinate is in the block's range on its axis. -/
theorem mem_blk5 (t : Fin cfg0.N) (i : S4x2048x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v3).slice (win0_5.rect t)).set ↔ _
  rw [View.set_slice_whole, Rect.mem_set_unit]
  exact Iff.rfl

/-- Every index of the result array lies in the block of some point that writes back: the point whose
    block index is (i 0, i 1 / 256, 0). -/
theorem cover5 : ∀ i : S4x2048x1024.Idx, ∃ t : Fin cfg0.N, (cfg0.win 5).flush t = true ∧ i ∈ ((cfg0.win 5).blk t).view.set := by
  intro i
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 1024 ≤ (i 2).val ∧ (i 2).val < win0_5.index t (2 : Fin 3) * 1024 + 1024
    omega

end Cert.KernelIdeal.Cover

end
-- ==== Proof.KernelValue.lean ====
/-
  The idealized kernel's result array is `kernelOut` of its five argument arrays.

  Grid point t = 8·b + i.  By induction on t: after point t the key scratch holds the unit key rows of batch b and
  the value scratch the value rows of batch b — written at i = 0 from the batch's key input, untouched for i > 0,
  and t and t − 1 share their batch when i > 0 — and the output tile holds, at (r, d), attention for query row
  256·i + r of batch b at column d, which is `kernelOut` at (b, 256·i + r, d).  Point t writes its tile back to
  block (b, i) of the result array, and the 32 blocks cover the array.
-/
import proofs.«118028_j12180527251775_2_alg».proof.Proof.Gen.KernelIdeal.Value
import proofs.«118028_j12180527251775_2_alg».proof.Proof.Pieces
import proofs.«118028_j12180527251775_2_alg».proof.Proof.Blocks
import proofs.«118028_j12180527251775_2_alg».proof.Proof.Cover

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Tiles Cert.KernelIdeal.Pieces Cert.KernelIdeal.Blocks
  Cert.KernelIdeal.Cover Cert.KernelIdeal.Pay Cert.Attn

variable (m : (ℓ : Loc nD τ sig) → Buf (Elt Ideal) ℓ) (ρ : Dev nD → PrngReg)

/-- The five argument arrays as launched. -/
abbrev X1 (c : Dev nD) : Arr3 := m ((c : Thread nD τ).loc main_arg0)
abbrev X2 (c : Dev nD) : Arr3 := m ((c : Thread nD τ).loc main_arg1)
abbrev WQ (c : Dev nD) : Mat := m ((c : Thread nD τ).loc main_arg2)
abbrev WK (c : Dev nD) : Mat := m ((c : Thread nD τ).loc main_arg3)
abbrev WV (c : Dev nD) : Mat := m ((c : Thread nD τ).loc main_arg4)

/-- The result array. -/
abbrev G (c : Dev nD) : Arr3 := kernelOut (X1 m c) (X2 m c) (WQ m c) (WK m c) (WV m c)

/-- The unit key rows of batch `b`, as the key scratch holds them. -/
def keyOf (c : Dev nD) (b : Fin 4) : Vec Ideal S2048x1024 .bf16 := fun j => kn (X2 m c) (WK m c) b (j 0) (j 1)

/-- The value rows of batch `b`, as the value scratch holds them. -/
def valOf (c : Dev nD) (b : Fin 4) : Vec Ideal S2048x1024 .bf16 := fun j => vv (X2 m c) (WV m c) b (j 0) (j 1)

/-- The output tile of grid point `t`: the result's rows 256·(t % 8) … of batch t / 8. -/
def tileOf (c : Dev nD) (t : Fin cfg0.N) : Vec Ideal S1x256x1024 .f32 :=
  fun y => G m c (ix3 (bOf t) (tileRow t (y 1)) (y 2))

/-- Over plain vectors: when the key input block reads batch `b` of `X` and the matrix block reads `W`, the key scratch
    function is the unit key rows of batch `b`. -/
theorem keyScr_of (x1 : FVec Ideal S1x2048x1024 .f32) (w : FVec Ideal S1024x1024 .bf16) (X : Arr3) (W : Mat) (b : Fin 4)
    (hx : ∀ (k : Fin 2048) (d : Fin 1024), x1 (ix3 (0 : Fin 1) k d) = X (ix3 b k d))
    (hw : ∀ d e : Fin 1024, w (ix2 d e) = W (ix2 d e)) :
    keyScr x1 w = fun j => kn X W b (j 0) (j 1) := by
  funext j
  obtain ⟨k, e, rfl⟩ : ∃ (k : Fin 2048) (e : Fin 1024), j = ix2 k e := ⟨j 0, j 1, eq_ix2 j⟩
  show unitRow (fun e' => ∑ d : Fin 1024, x1 (ix3 (0 : Fin 1) k d) * w (ix2 d e')) e = unitRow (proj X W b k) e
  refine congrArg (fun f => unitRow f e) (funext fun e' => ?_)
  unfold proj
  exact Finset.sum_congr rfl fun d _ => by rw [hx, hw]

/-- Likewise the value scratch function is the value rows of batch `b`. -/
theorem valScr_of (x1 : FVec Ideal S1x2048x1024 .f32) (w : FVec Ideal S1024x1024 .bf16) (X : Arr3) (W : Mat) (b : Fin 4)
    (hx : ∀ (k : Fin 2048) (d : Fin 1024), x1 (ix3 (0 : Fin 1) k d) = X (ix3 b k d))
    (hw : ∀ d e : Fin 1024, w (ix2 d e) = W (ix2 d e)) :
    valScr x1 w = fun j => vv X W b (j 0) (j 1) := by
  funext j
  obtain ⟨k, e, rfl⟩ : ∃ (k : Fin 2048) (e : Fin 1024), j = ix2 k e := ⟨j 0, j 1, eq_ix2 j⟩
  show (∑ d : Fin 1024, x1 (ix3 (0 : Fin 1) k d) * w (ix2 d e)) = proj X W b k e
  unfold proj
  exact Finset.sum_congr rfl fun d _ => by rw [hx, hw]

/-- Over plain vectors: when the query block reads rows `row r` of batch `b` of `A1` and the matrix block reads `Wq`,
    attention against the batch's key and value rows is those rows of the result. -/
theorem tile_of (x0 : FVec Ideal S1x256x1024 .f32) (wq : FVec Ideal S1024x1024 .bf16) (A1 A2 : Arr3) (Wq Wk Wv : Mat)
    (b : Fin 4) (row : Fin 256 → Fin 2048)
    (hx : ∀ (r : Fin 256) (d : Fin 1024), x0 (ix3 (0 : Fin 1) r d) = A1 (ix3 b (row r) d))
    (hw : ∀ d e : Fin 1024, wq (ix2 d e) = Wq (ix2 d e)) :
    k0_pay18 (F := Ideal) x0 wq (fun j => kn A2 Wk b (j 0) (j 1)) (fun j => vv A2 Wv b (j 0) (j 1))
      = fun y => kernelOut A1 A2 Wq Wk Wv (ix3 b (row (y 1)) (y 2)) := by
  funext y
  obtain ⟨u, r, d, rfl⟩ : ∃ (u : Fin 1) (r : Fin 256) (d : Fin 1024), y = ix3 u r d := ⟨y 0, y 1, y 2, eq_ix3 y⟩
  refine (pay18_apply x0 wq (fun j => kn A2 Wk b (j 0) (j 1)) (fun j => vv A2 Wv b (j 0) (j 1)) u r d).trans ?_
  show attnRow (fun e => ∑ d' : Fin 1024, x0 (ix3 (0 : Fin 1) r d') * wq (ix2 d' e)) (kn A2 Wk b) (vv A2 Wv b) d
    = attnRow (proj A1 Wq b (row r)) (kn A2 Wk b) (vv A2 Wv b) d
  refine congrArg (fun q => attnRow q (kn A2 Wk b) (vv A2 Wv b) d) (funext fun e => ?_)
  unfold proj
  exact Finset.sum_congr rfl fun d' _ => by rw [hx, hw]

/-- The key scratch written from point `t`'s key input block is the unit key rows of `t`'s batch. -/
theorem keyScr_block (c : Dev nD) (t : Fin cfg0.N) :
    keyScr (iblk m c 1 t) (iblk m c 3 t) = keyOf m c (bOf t) :=
  keyScr_of (iblk m c 1 t) (iblk m c 3 t) (X2 m c) (WK m c) (bOf t) (fun k d => iblk1_apply m c t 0 k d)
    (fun d e => iblk3_apply m c t d e)

/-- The value scratch written from point `t`'s key input block is the value rows of `t`'s batch. -/
theorem valScr_block (c : Dev nD) (t : Fin cfg0.N) :
    valScr (iblk m c 1 t) (iblk m c 4 t) = valOf m c (bOf t) :=
  valScr_of (iblk m c 1 t) (iblk m c 4 t) (X2 m c) (WV m c) (bOf t) (fun k d => iblk1_apply m c t 0 k d)
    (fun d e => iblk4_apply m c t d e)

/-- Attention of point `t`'s query tile against its batch's key and value rows is `t`'s tile of the result. -/
theorem tile_eq (c : Dev nD) (t : Fin cfg0.N) :
    k0_pay18 (F := Ideal) (iblk m c 0 t) (iblk m c 2 t) (keyOf m c (bOf t)) (valOf m c (bOf t)) = tileOf m c t :=
  tile_of (iblk m c 0 t) (iblk m c 2 t) (X1 m c) (X2 m c) (WQ m c) (WK m c) (WV m c) (bOf t) (tileRow t)
    (fun r d => iblk0_apply m c t 0 r d) (fun d e => iblk2_apply m c t d e)

/-- The contents after a point do not depend on how the point's position is spelt. -/
theorem outsAt0_congr (c : Dev nD) : ∀ (n n' : ℕ) (e : n = n') (h : n < cfg0.N) (h' : n' < cfg0.N),
    outsAt0 m c n h = outsAt0 m c n' h' := fun n n' e h h' => by subst e; rfl

/-- AFTER POINT n: the output tile is the result's tile, the scratch arrays hold the batch's key and value rows. -/
theorem outsAt_eq (c : Dev nD) : ∀ (n : ℕ) (h : n < cfg0.N),
    outsAt0 m c n h = (tileOf m c ⟨n, h⟩, keyOf m c (bOf ⟨n, h⟩), valOf m c (bOf ⟨n, h⟩))
  | 0, h => by
    rw [outsAt0_A m c ⟨0, h⟩ rfl, out_A, sout_A_0, sout_A_1, keyScr_block, valScr_block, tile_eq]
  | n + 1, h => by
    by_cases h0 : (n + 1) % 8 = 0
    · rw [outsAt0_A m c ⟨n + 1, h⟩ h0, out_A, sout_A_0, sout_A_1, keyScr_block, valScr_block, tile_eq]
    · have hn : n < cfg0.N := Nat.lt_of_succ_lt h
      have hb : bOf ⟨n, hn⟩ = bOf ⟨n + 1, h⟩ := Fin.ext (by show n / 8 = (n + 1) / 8; omega)
      rw [outsAt0_B m c ⟨n + 1, h⟩ h0, out_B]
      unfold sout0_B_0 sout0_B_1
      rw [outsAt0_congr m c ((⟨n + 1, h⟩ : Fin cfg0.N).val - 1) n rfl _ hn, outsAt_eq c n hn]
      dsimp only
      rw [hb, tile_eq]

/-- What point `t` writes back is its block of the result. -/
theorem flushed_eq (c : Dev nD) (t : Fin cfg0.N) :
    (dats m 0 c).flushed 5 t = ((cfg0.win 5).blk t).view.read (Elt Ideal) (G m c) := by
  rw [Value.flushed5, outsAt_eq m c t.val t.isLt]
  funext y
  obtain ⟨u, r, d, rfl⟩ : ∃ (u : Fin 1) (r : Fin 256) (d : Fin 1024), y = ix3 u r d := ⟨y 0, y 1, y 2, eq_ix3 y⟩
  show G m c (ix3 (bOf t) (tileRow t r) d) = G m c (((cfg0.win 5).blk t).view.emb (ix3 u r d))
  rw [blk5_emb]

/-- So the result array ends holding `kernelOut` of the argument arrays. -/
theorem final (c : Dev nD) : (dats m 0 c).arrAt 5 cfg0.N = G m c :=
  (dats m 0 c).arrAt_eq_of_cover 5 (G m c) (fun t _ => flushed_eq m c t) cover5

/-- The run, read: every weakly fair execution ends with the result array at `kernelOut` of the arguments, the
    arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefSpec.lean ====
/-
  The idealized reference computes the specification's `refOut`.

  The reference is read one operation at a time.  Each stage is an array; read at an index given by
  literal coordinates, it is the corresponding quantity of the specification: the three projections,
  the unit rows, the cosine scores, the row maximum, the exponential weights, their row sum, the
  normalised weights, and last the weighted sum of the value rows.
-/
import proofs.«118028_j12180527251775_2_alg».proof.Proof.Gen.ReferenceIdeal.Read
import proofs.«118028_j12180527251775_2_alg».proof.Proof.Spec
import Idealize.ShloMosaic.Lib.ValueIdx
import Idealize.ShloMosaic.PureOps.Ideal.Laws

noncomputable section

namespace Cert.Attn.Ref

open Cert.ReferenceIdeal Cert.ReferenceIdeal.Gen Cert.ReferenceIdeal.Read
open Idealize.ShloMosaic Idealize.ShloMosaic.ValueIdx

/-- An argument array of shape [4, 2048, 1024]. -/
abbrev A3 : Type := (⟨S4x2048x1024, .f32⟩ : BufTy).Contents (Elt Ideal)
/-- An argument matrix of shape [1024, 1024]. -/
abbrev M2 : Type := (⟨S1024x1024, .f32⟩ : BufTy).Contents (Elt Ideal)

/-- Two indices of rank 3 agree when their coordinates do. -/
local macro "coords3" : tactic =>
  `(tactic| (funext a; match a with | ⟨0, _⟩ => rfl | ⟨1, _⟩ => rfl | ⟨2, _⟩ => rfl))
/-- Two indices of rank 2 agree when their coordinates do. -/
local macro "coords2" : tactic =>
  `(tactic| (funext a; match a with | ⟨0, _⟩ => rfl | ⟨1, _⟩ => rfl))

/-! ## The three projections -/

/-- In a product of an array with a matrix, entry `(b, s, e)` reads row `(b, s)` of the array … -/
theorem lrow (b : Fin 4) (s : Fin 2048) (e d : Fin 1024) : lidx_main_v0 (ix3 b s e) d = ix3 b s d := by coords3
/-- … against column `e` of the matrix. -/
theorem rcol (b : Fin 4) (s : Fin 2048) (e d : Fin 1024) : ridx_main_v0 (ix3 b s e) d = ix2 d e := by coords2

/-- The first projection is the query rows: `x·WQ`. -/
theorem v0_eq (x : A3) (w : M2) (b : Fin 4) (s : Fin 2048) (e : Fin 1024) :
    val_main_v0 (F := Ideal) x w (ix3 b s e) = proj x w b s e := by
  rw [val_main_v0_apply]
  exact Finset.sum_congr rfl fun d _ => by rw [lrow, rcol]

/-- The second projection is the key rows: `x·WK`. -/
theorem v1_eq (x : A3) (w : M2) (b : Fin 4) (s : Fin 2048) (e : Fin 1024) :
    val_main_v1 (F := Ideal) x w (ix3 b s e) = proj x w b s e := by
  rw [val_main_v1_apply]
  exact Finset.sum_congr rfl fun d _ => by rw [show lidx_main_v1 (ix3 b s e) d = ix3 b s d by coords3,
    show ridx_main_v1 (ix3 b s e) d = ix2 d e by coords2]

/-- The third projection is the value rows: `x·WV`. -/
theorem v2_eq (x : A3) (w : M2) (b : Fin 4) (s : Fin 2048) (e : Fin 1024) :
    val_main_v2 (F := Ideal) x w (ix3 b s e) = vv x w b s e := by
  rw [val_main_v2_apply]
  show _ = proj x w b s e
  exact Finset.sum_congr rfl fun d _ => by rw [show lidx_main_v2 (ix3 b s e) d = ix3 b s d by coords3,
    show ridx_main_v2 (ix3 b s e) d = ix2 d e by coords2]

/-! ## Unit rows -/

/-- The squared length of a query row, summed from the zero word. -/
theorem v4_eq (x : A3) (w : M2) (b : Fin 4) (s : Fin 2048) :
    val_main_v4 (F := Ideal) x w (ix2 b s) = ∑ d : Fin 1024, proj x w b s d * proj x w b s d := by
  rw [val_main_v4_apply, val_main_cst_apply, Ideal.ofBits_def, Ideal.ofBits_zero_f32, zero_add]
  refine Finset.sum_congr rfl fun d _ => ?_
  simp only [show idx_main_v4 (ix2 b s) d = ix3 b s d by coords3, val_main_v3_apply, v0_eq, Ideal.mulf_def]

/-- The query rows scaled to unit length. -/
theorem v10_eq (x : A3) (w : M2) (b : Fin 4) (s : Fin 2048) (e : Fin 1024) :
    val_main_v10 (F := Ideal) x w (ix3 b s e) = qn x w b s e := by
  rw [val_main_v10_apply, val_main_v9_apply, val_main_v8_apply, val_main_v7_apply, val_main_v5_apply,
    val_main_v6_apply, val_main_cst_0_apply, v0_eq,
    show idx_main_v5 (idx_main_v9 (ix3 b s e)) = ix2 b s by coords2, v4_eq]
  rfl

/-- The squared length of a key row, summed from the zero word. -/
theorem v12_eq (x : A3) (w : M2) (b : Fin 4) (s : Fin 2048) :
    val_main_v12 (F := Ideal) x w (ix2 b s) = ∑ d : Fin 1024, proj x w b s d * proj x w b s d := by
  rw [val_main_v12_apply, val_main_cst_1_apply, Ideal.ofBits_def, Ideal.ofBits_zero_f32, zero_add]
  refine Finset.sum_congr rfl fun d _ => ?_
  simp only [show idx_main_v12 (ix2 b s) d = ix3 b s d by coords3, val_main_v11_apply, v1_eq, Ideal.mulf_def]

/-- The key rows scaled to unit length. -/
theorem v18_eq (x : A3) (w : M2) (b : Fin 4) (s : Fin 2048) (e : Fin 1024) :
    val_main_v18 (F := Ideal) x w (ix3 b s e) = kn x w b s e := by
  rw [val_main_v18_apply, val_main_v17_apply, val_main_v16_apply, val_main_v15_apply, val_main_v13_apply,
    val_main_v14_apply, val_main_cst_2_apply, v1_eq,
    show idx_main_v13 (idx_main_v17 (ix3 b s e)) = ix2 b s by coords2, v12_eq]
  rfl

/-! ## Scores -/

/-- The score of query row `q` against key row `k`: the inner product of the two unit rows. -/
theorem v19_eq (x1 x2 : A3) (wq wk : M2) (b : Fin 4) (q k : Fin 2048) :
    val_main_v19 (F := Ideal) x1 x2 wq wk (ix3 b q k) = score x1 x2 wq wk b q k := by
  rw [val_main_v19_apply]
  unfold score
  refine Finset.sum_congr rfl fun d _ => ?_
  rw [show lidx_main_v19 (ix3 b q k) d = ix3 b q d by coords3,
    show ridx_main_v19 (ix3 b q k) d = ix3 b k d by coords3, v10_eq, v18_eq]

/-! ## The row maximum -/

/-- A maximum taken along the last axis of a [4, 2048, 2048] array, started from the word of −∞, is at row
    `(b, q)` the maximum, folded from that word, of the row's 2048 entries. -/
theorem rowFold (y : (⟨S4x2048x2048, .f32⟩ : BufTy).Contents (Elt Ideal)) (b : Fin 4) (q : Fin 2048) :
    Host.reduce (FloatOps.maximumf (F := Ideal) (φ := .f32)) y (val_main_cst_3 (F := Ideal))
        reducesTo_S4x2048x2048_S4x2048_d2 h_S_ (ix2 b q)
      = (Finset.univ : Finset (Fin 2048)).fold max negInf (fun k => y (ix3 b q k)) := by
  have h : S4x2048x2048.Reduces [2] S4x2048 := by decide
  rw [Host.reduce_eq_fold_single _ y _ reducesTo_S4x2048x2048_S4x2048_d2 h h_S_]
  have hf : (y ∘ h.lift (ix2 b q)) = fun k : Fin 2048 => y (ix3 b q k) :=
    funext fun k => congrArg y (by coords3)
  rw [hf]
  rfl

/-- The largest score of query row `q`. -/
theorem v20_eq (x1 x2 : A3) (wq wk : M2) (b : Fin 4) (q : Fin 2048) :
    val_main_v20 (F := Ideal) x1 x2 wq wk (ix2 b q) = rowMax x1 x2 wq wk b q := by
  unfold val_main_v20 rowMax
  rw [rowFold]
  exact congrArg (fun f => (Finset.univ : Finset (Fin 2048)).fold max negInf f)
    (funext fun k => v19_eq x1 x2 wq wk b q k)

/-- Taking the maximum with −∞ once more changes nothing: the fold already started there. -/
theorem v22_eq (x1 x2 : A3) (wq wk : M2) (b : Fin 4) (q : Fin 2048) :
    val_main_v22 (F := Ideal) x1 x2 wq wk (ix2 b q) = rowMax x1 x2 wq wk b q := by
  rw [val_main_v22_apply, val_main_v21_apply, val_main_cst_4_apply, v20_eq, Ideal.maximumf_def]
  unfold rowMax
  exact max_eq_right ((Finset.le_fold_max _).2 (Or.inl le_rfl))

/-! ## Weights and the result -/

/-- The weight of key row `k` for query row `q`: the exponential of the score less the row maximum. -/
theorem v26_eq (x1 x2 : A3) (wq wk : M2) (b : Fin 4) (q k : Fin 2048) :
    val_main_v26 (F := Ideal) x1 x2 wq wk (ix3 b q k) = wexp x1 x2 wq wk b q k := by
  rw [val_main_v26_apply, val_main_v25_apply, val_main_v24_apply, val_main_v23_apply, v19_eq,
    show idx_main_v23 (idx_main_v24 (ix3 b q k)) = ix2 b q by coords2, v22_eq]
  rfl

/-- The sum of the weights of query row `q`, summed from the zero word. -/
theorem v27_eq (x1 x2 : A3) (wq wk : M2) (b : Fin 4) (q : Fin 2048) :
    val_main_v27 (F := Ideal) x1 x2 wq wk (ix2 b q) = rowSum x1 x2 wq wk b q := by
  rw [val_main_v27_apply, val_main_cst_5_apply, Ideal.ofBits_def, Ideal.ofBits_zero_f32, zero_add]
  unfold rowSum
  refine Finset.sum_congr rfl fun k _ => ?_
  rw [show idx_main_v27 (ix2 b q) k = ix3 b q k by coords3, v26_eq]

/-- The normalised weight: each weight divided by the sum of its row's weights. -/
theorem v30_eq (x1 x2 : A3) (wq wk : M2) (b : Fin 4) (q k : Fin 2048) :
    val_main_v30 (F := Ideal) x1 x2 wq wk (ix3 b q k)
      = Ideal.div (wexp x1 x2 wq wk b q k) (rowSum x1 x2 wq wk b q) := by
  rw [val_main_v30_apply, val_main_v29_apply, val_main_v28_apply, v26_eq,
    show idx_main_v28 (idx_main_v29 (ix3 b q k)) = ix2 b q by coords2, v27_eq]
  rfl

/-- The reference's result: the value rows summed with the normalised weights. -/
theorem v31_eq (x1 x2 : A3) (wq wk wv : M2) (b : Fin 4) (q : Fin 2048) (e : Fin 1024) :
    val_main_v31 (F := Ideal) x1 x2 wq wk wv (ix3 b q e)
      = ∑ k : Fin 2048, Ideal.div (wexp x1 x2 wq wk b q k) (rowSum x1 x2 wq wk b q) * vv x2 wv b k e := by
  rw [val_main_v31_apply]
  refine Finset.sum_congr rfl fun k _ => ?_
  rw [show lidx_main_v31 (ix3 b q e) k = ix3 b q k by coords3,
    show ridx_main_v31 (ix3 b q e) k = ix3 b k e by coords3, v30_eq, v2_eq]

/-- The idealized reference computes `refOut`: every weight is divided by its row's sum before the value rows
    are summed.  The arguments are, in order, the query-side array, the key/value-side array, and the three
    matrices `WQ`, `WK`, `WV`. -/
theorem ref_eq (x0 x1 : (⟨Cert.ReferenceIdeal.S4x2048x1024, .f32⟩ : BufTy).Contents (Elt Ideal))
    (x2 x3 x4 : (⟨Cert.ReferenceIdeal.S1024x1024, .f32⟩ : BufTy).Contents (Elt Ideal)) :
    Cert.ReferenceIdeal.Read.val_main_v31 (F := Ideal) x0 x1 x2 x3 x4 = Cert.Attn.refOut x0 x1 x2 x3 x4 := by
  funext i
  obtain ⟨b, q, e, rfl⟩ : ∃ (b : Fin 4) (q : Fin 2048) (e : Fin 1024), i = ix3 b q e :=
    ⟨i 0, i 1, i 2, eq_ix3 i⟩
  exact v31_eq x0 x1 x2 x3 x4 b q e

end Cert.Attn.Ref

end
-- ==== Proof.Law.lean ====
/-
  The two arrangements of cosine-similarity attention agree on real inputs.

  When every input entry is a real number, every intermediate quantity of the specification is a real
  number as well: a finite sum of products of reals is real; the floor ε is a positive real, so the
  maximum of a squared length and ε is a positive real and its reciprocal square root is real; a fold
  of `max` from −∞ over a non-empty family of reals is real; the exponential of a real is a positive
  real; and a finite non-empty sum of positive reals is a positive real.  With a weight sum `L ≠ 0`,
  dividing by `L` is multiplying by `1 / L`, and in ℝ

      (Σ_k w_k · v_k) · L⁻¹ = Σ_k (w_k · L⁻¹) · v_k .
-/
import proofs.«118028_j12180527251775_2_alg».proof.Proof.Spec

noncomputable section

namespace Cert.Attn

open Idealize.ShloMosaic Idealize.ShloMosaic.ValueIdx

/-- An extended real that is an ordinary real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

/-- The coercion from ℝ commutes with finite sums. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of real-valued terms is real-valued. -/
theorem IsReal.sum {ι : Type*} (s : Finset ι) (f : ι → EReal) (h : ∀ i, IsReal (f i)) :
    IsReal (∑ i ∈ s, f i) := by
  choose g hg using h
  exact ⟨∑ i ∈ s, g i, by rw [← coe_sum]; exact Finset.sum_congr rfl (fun i _ => hg i)⟩

/-- The floor ε is a positive real number. -/
theorem eps_pos : ∃ r : ℝ, 0 < r ∧ eps = (r : EReal) := by
  refine ⟨9223372 * ((2 : ℝ) ^ 63)⁻¹, by positivity, ?_⟩
  simp [eps, Ideal.ofBits, Ideal.ieee]

/-- The starting value of a row maximum is −∞. -/
theorem negInf_eq : negInf = ⊥ := by
  simp [negInf, Ideal.ofBits, Ideal.ieee]

/-- A row of a product of real arrays is real. -/
theorem proj_real (X : Arr3) (W : Mat) (hX : ∀ i, IsReal (X i)) (hW : ∀ i, IsReal (W i))
    (b : Fin 4) (s : Fin 2048) (e : Fin 1024) : IsReal (proj X W b s e) :=
  IsReal.sum _ _ (fun _ => (hX _).mul (hW _))

/-- A real row scaled to unit length is real: its squared length is real, so the larger of it and ε
    is a positive real, whose reciprocal square root is real. -/
theorem unitRow_real (z : Fin 1024 → EReal) (hz : ∀ e, IsReal (z e)) (e : Fin 1024) :
    IsReal (unitRow z e) := by
  have hsq : IsReal (∑ d : Fin 1024, z d * z d) := IsReal.sum _ _ (fun d => (hz d).mul (hz d))
  obtain ⟨t, ht⟩ := hsq
  obtain ⟨r, hr, he⟩ := eps_pos
  have hpos : 0 < max t r := lt_max_of_lt_right hr
  unfold unitRow
  refine (hz e).mul ?_
  have hm : max (t : EReal) (r : EReal) = ((max t r : ℝ) : EReal) :=
    (EReal.coe_strictMono.monotone.map_max).symm
  rw [ht, he, hm, Ideal.rsqrt_coe, if_neg (not_lt.mpr hpos.le), if_neg hpos.ne']
  exact ⟨_, rfl⟩

section Stages

variable (x1 x2 : Arr3) (WQ WK WV : Mat)
  (h1 : ∀ i, IsReal (x1 i)) (h2 : ∀ i, IsReal (x2 i))
  (hq : ∀ i, IsReal (WQ i)) (hk : ∀ i, IsReal (WK i)) (hv : ∀ i, IsReal (WV i))

include h1 hq in
theorem qn_real (b : Fin 4) (s : Fin 2048) (e : Fin 1024) : IsReal (qn x1 WQ b s e) :=
  unitRow_real _ (fun e' => proj_real x1 WQ h1 hq b s e') e

include h2 hk in
theorem kn_real (b : Fin 4) (s : Fin 2048) (e : Fin 1024) : IsReal (kn x2 WK b s e) :=
  unitRow_real _ (fun e' => proj_real x2 WK h2 hk b s e') e

include h2 hv in
theorem vv_real (b : Fin 4) (s : Fin 2048) (e : Fin 1024) : IsReal (vv x2 WV b s e) :=
  proj_real x2 WV h2 hv b s e

include h1 h2 hq hk in
/-- Every cosine score is real. -/
theorem score_real (b : Fin 4) (q k : Fin 2048) : IsReal (score x1 x2 WQ WK b q k) :=
  IsReal.sum _ _ (fun d => (qn_real x1 WQ h1 hq b q d).mul (kn_real x2 WK h2 hk b k d))

/-- A fold of `max` from −∞ over real values is either still −∞ or a real. -/
theorem fold_max_real {ι : Type*} (f : ι → EReal) (hf : ∀ i, IsReal (f i)) (s : Finset ι) :
    s.fold max ⊥ f = ⊥ ∨ IsReal (s.fold max ⊥ f) := by
  classical
  induction s using Finset.induction_on with
  | empty => left; exact Finset.fold_empty
  | insert a s ha ih =>
    right
    rw [Finset.fold_insert ha]
    rcases ih with h | h
    · rw [h, max_bot_right]; exact hf a
    · exact (hf a).max h

include h1 h2 hq hk in
/-- The row maximum is real: it is at least the first score, which is a real, so it is not −∞. -/
theorem rowMax_real (b : Fin 4) (q : Fin 2048) : IsReal (rowMax x1 x2 WQ WK b q) := by
  unfold rowMax
  rw [negInf_eq]
  rcases fold_max_real (fun k => score x1 x2 WQ WK b q k)
      (fun k => score_real x1 x2 WQ WK h1 h2 hq hk b q k) Finset.univ with h | h
  · exfalso
    have h0 : score x1 x2 WQ WK b q 0
        ≤ (Finset.univ : Finset (Fin 2048)).fold max ⊥ (fun k => score x1 x2 WQ WK b q k) :=
      (Finset.le_fold_max _).mpr (Or.inr ⟨0, Finset.mem_univ _, le_rfl⟩)
    rw [h] at h0
    obtain ⟨r, hr⟩ := score_real x1 x2 WQ WK h1 h2 hq hk b q 0
    rw [hr] at h0
    exact EReal.coe_ne_bot r (le_bot_iff.mp h0)
  · exact h

include h1 h2 hq hk in
/-- Every weight is a positive real: the exponential of a difference of reals. -/
theorem wexp_pos (b : Fin 4) (q k : Fin 2048) :
    ∃ r : ℝ, 0 < r ∧ wexp x1 x2 WQ WK b q k = (r : EReal) := by
  obtain ⟨s, hs⟩ := score_real x1 x2 WQ WK h1 h2 hq hk b q k
  obtain ⟨m, hm⟩ := rowMax_real x1 x2 WQ WK h1 h2 hq hk b q
  unfold wexp
  rw [hs, hm, ← EReal.coe_sub, Ideal.exp_coe]
  exact ⟨Real.exp (s - m), Real.exp_pos _, rfl⟩

include h1 h2 hq hk in
/-- The sum of a row's weights is a positive real. -/
theorem rowSum_pos (b : Fin 4) (q : Fin 2048) :
    ∃ l : ℝ, 0 < l ∧ rowSum x1 x2 WQ WK b q = (l : EReal) := by
  choose a ha0 ha using fun k => wexp_pos x1 x2 WQ WK h1 h2 hq hk b q k
  refine ⟨∑ k : Fin 2048, a k, Finset.sum_pos (fun k _ => ha0 k) Finset.univ_nonempty, ?_⟩
  unfold rowSum
  rw [← coe_sum]
  exact Finset.sum_congr rfl (fun k _ => ha k)

end Stages

/-- On real inputs, dividing the finished weighted sum by the weight sum `L` equals summing the weights
    divided by `L` first: both are `Σ_k w_k · v_k · L⁻¹` in ℝ, since `L` is a nonzero real. -/
theorem kernelOut_eq_refOut (x1 x2 : Arr3) (WQ WK WV : Mat)
    (h1 : ∀ i, ∃ r : ℝ, x1 i = (r : EReal)) (h2 : ∀ i, ∃ r : ℝ, x2 i = (r : EReal))
    (hq : ∀ i, ∃ r : ℝ, WQ i = (r : EReal)) (hk : ∀ i, ∃ r : ℝ, WK i = (r : EReal))
    (hv : ∀ i, ∃ r : ℝ, WV i = (r : EReal)) :
    kernelOut x1 x2 WQ WK WV = refOut x1 x2 WQ WK WV := by
  funext i
  choose a _ ha using fun k => wexp_pos x1 x2 WQ WK h1 h2 hq hk (i 0) (i 1) k
  choose c hc using fun k => vv_real x2 WV h2 hv (i 0) k (i 2)
  obtain ⟨l, hl, hL⟩ := rowSum_pos x1 x2 WQ WK h1 h2 hq hk (i 0) (i 1)
  simp only [kernelOut, refOut, ha, hc, hL, Ideal.div_coe hl.ne', ← EReal.coe_mul, coe_sum]
  rw [Finset.sum_mul]
  exact congrArg _ (Finset.sum_congr rfl (fun k _ => by ring))

end Cert.Attn

end
-- ==== Proof.Finite.lean ====
/-
  From the certificate's precondition to "every input entry is a real number".

  The precondition is a printed predicate: for each of the five inputs it compares `|x|` with +∞ entry by
  entry, takes the conjunction over all entries, and joins the five results by `and`; it is required to
  be 1.  A conjunction that is 1 has every conjunct 1, so `max x (−x) < +∞` at every entry `x`; neither
  +∞ nor −∞ satisfies this, so `x` is a real number.
-/
import proofs.«118028_j12180527251775_2_alg».proof.Pre_finite_inputs
import Idealize.ShloMosaic.PureOps.Ideal
import Idealize.ShloMosaic.Lib.ValueIdx
import Idealize.ShloMosaic.Lib.ReduceAll

noncomputable section

namespace Cert.Attn

open Idealize.ShloMosaic Cert.Pre_finite_inputs

/-- The rank-0 shape has exactly one index. -/
local instance : Subsingleton S_.Idx := ⟨fun a b => funext fun d => d.elim0⟩

/-- An extended real whose absolute value compares below the f32 word of +∞ is a real number. -/
theorem real_of_abs_lt_inf (x : EReal)
    (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

/-- `all (|a| < +∞) = 1` over a whole array makes every entry of the array a real number. -/
theorem real_of_all {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi
          (cmpf .olt (Host.absf a) (broadcastInDim s ![] hb (constant S_ .f32 0x7F800000#32))) init hr hu
          ValueIdx.ix0 = 1#1) :
    ∀ i, ∃ r : ℝ, a i = (r : EReal) := fun i =>
  real_of_abs_lt_inf (a i) (Host.reduce_andi_all _ init hr hu _ e i)

variable [Cert.Pre_finite_inputs.Facts]

/-- The precondition makes every entry of all five inputs a real number. -/
theorem finite_of_fn (a0 a1 : FVec Ideal S4x2048x1024 .f32) (a2 a3 a4 : FVec Ideal S1024x1024 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) := by
  have h0 := congrFun h ValueIdx.ix0
  dsimp only [fn, fn_part1, andi] at h0
  simp only [IntOp.andi_eq_one] at h0
  obtain ⟨⟨⟨⟨e0, e1⟩, e2⟩, e3⟩, e4⟩ := h0
  exact ⟨real_of_all _ _ _ a0 _ e0, real_of_all _ _ _ a1 _ e1, real_of_all _ _ _ a2 _ e2,
    real_of_all _ _ _ a3 _ e3, real_of_all _ _ _ a4 _ e4⟩

end Cert.Attn

end
-- ==== Proof.lean ====
/-
  Cosine-similarity attention in one fused kernel against its jnp reference: the five claims.

  Both programs compute, per batch, Q = x1·WQ, K = x2·WK, V = x2·WV, scale the rows of Q and K to unit length
  (z · rsqrt (max (Σ z²) ε), the same ε word on both sides), take scores Qn·Knᵀ, weights exp (score − row maximum),
  and the weighted sum of the rows of V normalised by the weight sum.  On the extended reals a change of float format
  is the identity and a sum's order and tiling do not matter, so the two programs differ in one place only: the
  kernel divides the finished weighted sum by the weight sum, (Σ_k w_k · V_k) / L, the reference divides every weight
  first, Σ_k (w_k / L) · V_k.  With finite inputs every quantity is a real number and L ≥ 1, where the two agree;
  at infinite inputs they need not, so the precondition is used.

  The kernel side (module KernelValue): the grid is 4 batches × 8 query tiles; at the first tile of a batch the body
  fills a key scratch and a value scratch, which the other seven tiles reuse; by induction over the grid points the
  scratch arrays hold the batch's unit key rows and value rows, every tile of the result is attention for its 256
  query rows, and the 32 tiles cover the result array.  The reference side (module RefSpec) reads the host program one
  operation at a time.  The law between the two arrangements is module Law, finiteness from the precondition module
  Finite.  The ideal pass rewrote nothing, so `preserves` is `True`; the three frames are the generated frame runs
  (the reference's with its result dropped).
-/
import proofs.«118028_j12180527251775_2_alg».proof.Defs
import proofs.«118028_j12180527251775_2_alg».proof.Proof.Gen.Kernel
import proofs.«118028_j12180527251775_2_alg».proof.Proof.Gen.Kernel.Skeleton
import proofs.«118028_j12180527251775_2_alg».proof.Proof.Gen.Kernel.Launch
import proofs.«118028_j12180527251775_2_alg».proof.Proof.Gen.Kernel.Points
import proofs.«118028_j12180527251775_2_alg».proof.Proof.Gen.Kernel.Frame
import proofs.«118028_j12180527251775_2_alg».proof.Proof.Gen.KernelIdeal
import proofs.«118028_j12180527251775_2_alg».proof.Proof.Gen.KernelIdeal.Skeleton
import proofs.«118028_j12180527251775_2_alg».proof.Proof.Gen.KernelIdeal.Launch
import proofs.«118028_j12180527251775_2_alg».proof.Proof.Gen.KernelIdeal.Points
import proofs.«118028_j12180527251775_2_alg».proof.Proof.Gen.KernelIdeal.Frame
import proofs.«118028_j12180527251775_2_alg».proof.Proof.Gen.ReferenceIdeal
import proofs.«118028_j12180527251775_2_alg».proof.Proof.Gen.Pre_finite_inputs
import proofs.«118028_j12180527251775_2_alg».proof.Proof.Gen.KernelIdeal.Value
import proofs.«118028_j12180527251775_2_alg».proof.Proof.Gen.ReferenceIdeal.Run
import proofs.«118028_j12180527251775_2_alg».proof.Proof.Gen.ReferenceIdeal.Read
import proofs.«118028_j12180527251775_2_alg».proof.Proof.KernelValue
import proofs.«118028_j12180527251775_2_alg».proof.Proof.RefSpec
import proofs.«118028_j12180527251775_2_alg».proof.Proof.Law
import proofs.«118028_j12180527251775_2_alg».proof.Proof.Finite
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the five arguments, all finite: the kernel's result array ends at (Σ_k w_k · V_k) / L,
    the reference's at Σ_k (w_k / L) · V_k, index by index, and these are equal real numbers. -/
theorem algebraic : Cert.algebraic_KernelIdeal_ReferenceIdeal := by
  intro m ρ m' ρ' hpre hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.Attn.finite_of_fn _ _ _ _ _ (hpre c)
  rw [Cert.ReferenceIdeal.Read.val_main_v31_eq, Cert.Attn.Ref.ref_eq, (hagree c).1, (hagree c).2.1, (hagree c).2.2.1,
    (hagree c).2.2.2.1, (hagree c).2.2.2.2]
  exact (Cert.Attn.kernelOut_eq_refOut _ _ _ _ _ f0 f1 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
